-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S512x4096 : Shape := ⟨2, ![512, 4096]⟩
abbrev S1024x4096 : Shape := ⟨2, ![1024, 4096]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .bf16⟩
  | .local _ .vmem, ⟨5, _⟩ => ⟨S512x4096, .bf16⟩
  | .local _ .vmem, ⟨6, _⟩ => ⟨S1024x4096, .f32⟩
  | .local _ .vmem, ⟨7, _⟩ => ⟨S1024x4096, .f32⟩
  | .local _ .vmem, ⟨8, _⟩ => ⟨S1024x4096, .bf16⟩
  | .local _ .vmem, ⟨9, _⟩ => ⟨S1024x4096, .bf16⟩
  | .local _ .vmem, ⟨10, _⟩ => ⟨S1024x1024, .f32⟩
  | .local _ .vmem, ⟨11, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S512x4096_S512x4096_0_0 : ∀ a, (![0, 0] : Fin 2 → Nat) a + S512x4096.size a ≤ S512x4096.size a
  h_S512x4096 : 0 < S512x4096.numel
  natLt_1_32 : 1 < 32
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x1024_S1024x1024_0_0 : ∀ a, (![0, 0] : Fin 2 → Nat) a + S1024x1024.size a ≤ S1024x1024.size a
  h_S1024x1024 : 0 < S1024x1024.numel
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x4096.size a
  hwx1_2 : ∀ i : grid1.Coords, EltTy.bits .f32 = 32 ∨ (Rect.block (s := S8192x4096) S1024x1024.size (cc1_transform_2 i) (hinb1_2 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.KernelRun.lean ====
/-
  The idealized kernel's run, with the result buffer named.

  @main is two pipelined regions in a row.  The buffers' contents are followed through the run as a fold: at launch
  they are the memory `m`; after the first region its arrays hold what its write-backs leave and every other
  buffer is unchanged; after the second region likewise.  Every weakly fair execution terminates without a fault
  in a state whose unscoped buffers hold the last fold's contents, so the result buffer ends at the second region's
  output array after all of its write-backs, and the three arguments end as launched.
-/
import proofs.«101423_j25451976196807_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last fold's
    contents and the arguments as launched. -/
theorem run_fold : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Fold

end
-- ==== Proof.Binarize.lean ====
/-
  The first region: the ternary weight array.

  The region's grid has 8 points; point `t` reads rows `512·t … 512·t + 511` of the two weight arrays (all 4096
  columns) and writes the same rows of its output.  The body is entry by entry: an entry of the output is
  `[a > 0] − [b > 0]` of the two weights `a`, `b` at the same position, where `[· > 0]` is the comparison's bit
  widened to 32 bits, read as a signed integer and converted to a float.  Each point's write-back is therefore its
  block of ONE whole-array function of the two weight arrays, the 8 blocks tile the array, and so the array after all
  write-backs is that function.  Stated for any float instance.
-/
import proofs.«101423_j25451976196807_2_alg».proof.Proof.Gen.KernelIdeal.Frame
import Idealize.ShloMosaic.Lib.Pipeline.Value

set_option maxRecDepth 16384

noncomputable section

namespace Cert.KernelIdeal.Binarize

open Cert.KernelIdeal Cert.KernelIdeal.Gen
open Idealize.ShloMosaic Idealize.ShloMosaic.TcCoe Idealize.SL.Sem
open Idealize.ShloMosaic.Pipeline (Dat Cfg Window)

variable {F : FTy → Type} [FloatOps F]

/-- `[w > 0]` as a float: the comparison's bit, zero-extended to 32 bits, read signed, converted, and narrowed. -/
def positive (w : F .f32) : F .bf16 :=
  FloatOps.truncf .bf16 (by decide)
    (FloatOps.sitofp .f32 ((FloatOps.cmpf .ogt w (FloatOps.ofBits .f32 0x00000000#32)).setWidth 32))

/-- One entry of the ternary weight: `[a > 0] − [b > 0]`. -/
def ternary (a b : F .f32) : F .bf16 := FloatOps.subf (positive a) (positive b)

/-- The ternary weight array of two weight arrays, entry by entry. -/
abbrev ternaryArray (a b : S4096x4096.Idx → Elt F .f32) : S4096x4096.Idx → Elt F .bf16 :=
  fun i => ternary (a i) (b i)

/-- The body's stored value is `ternary` of its two loaded blocks, entry by entry. -/
theorem payload_eq (x0 x1 : Vec F S512x4096 .f32) : k0_pay1 x0 x1 = fun j => ternary (x0 j) (x1 j) := rfl

theorem zero_offsets : (![0, 0] : Fin 2 → Nat) = fun _ => 0 := funext fun a => by fin_cases a <;> rfl

/-- At point `t` all three windows are at block row `t`, block column 0. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt F) ((c : Thread nD τ).loc b))

/-- What point `t` writes back is block `t` of the ternary weight array of the weight arrays as the region
    finds them. -/
theorem flushed_eq (c : Dev nD) (t : Fin cfg0.N) :
    (dat0 V c).flushed 2 t
      = ((cfg0.win 2).blk t).view.read (Elt F) (ternaryArray (V c main_arg1) (V c main_arg2)) := by
  show (cfg0.win 2).cut (grid0.coords t) ((dat0 V c).after 2 t) = _
  rw [after0_2]
  unfold out0_2
  rw [View.canon_unit_zero zero_offsets]
  simp only [View.ld_unit_zero (S := S512x4096) zero_offsets]
  rw [payload_eq]
  obtain ⟨e0, e1, e2, e3, e4, e5⟩ := block_index t
  funext j
  show ternary (V c main_arg1 (((cfg0.win 0).blk t).view.emb j)) (V c main_arg2 (((cfg0.win 1).blk t).view.emb j))
    = ternary (V c main_arg1 (((cfg0.win 2).blk t).view.emb j)) (V c main_arg2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 4096 + 1 * (j 1).val = win0_2.index t (1 : Fin 2) * 4096 + 1 * (j 1).val; omega
  rw [h0, h1]

/-- An index of the array is in point `t`'s output block iff each coordinate is in the block's range. -/
theorem mem_block (t : Fin cfg0.N) (i : S4096x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- Row `r` of the array is in the block of point `r / 512`: the blocks tile the array. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ : ∃ t : Fin cfg0.N, t.val = (i 0).val / 512 :=
    ⟨⟨(i 0).val / 512, by show (i 0).val / 512 < 8; omega⟩, rfl⟩
  obtain ⟨e0, e1, e2, e3, e4, e5⟩ := block_index t
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The region's output array after all its write-backs: the ternary weight array of the two weight arrays. -/
theorem final (c : Dev nD) :
    (dat0 V c).arrAt 2 cfg0.N = ternaryArray (V c main_arg1) (V c main_arg2) :=
  (dat0 V c).arrAt_eq_of_cover 2 _ (fun t _ => flushed_eq V c t) covered

end Cert.KernelIdeal.Binarize

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.Product.lean ====
/-
  The second region: the product with the transposed ternary weight, on the extended reals.

  The region's grid is 8 × 4; point `(i, j)` reads rows `1024·i …` of the activations (all 4096 columns), rows
  `1024·j …` of the ternary weight (all 4096 columns), and writes the `1024 × 1024` block `(i, j)` of the output.
  The body multiplies its activation block by the TRANSPOSE of its weight block into a zero accumulator; a change of
  float format is the identity on the extended reals.  So entry `(p, q)` of the block is the sum over `k` of the
  activation at row `1024·i + p`, column `k`, times the weight at row `1024·j + q`, column `k`: the block of ONE
  whole-array function, the product `X · Wᵀ`.  The 32 blocks tile the output array.
-/
import proofs.«101423_j25451976196807_2_alg».proof.Proof.Gen.KernelIdeal.Frame
import proofs.«101423_j25451976196807_2_alg».proof.Proof.LibMatmulNT
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- `X · Wᵀ` entry by entry: entry `(r, s)` is the sum over `k` of `X (r, k) · W (s, k)`. -/
abbrev productArray (x : S8192x4096.Idx → Elt Ideal .f32) (w : S4096x4096.Idx → Elt Ideal .bf16) :
    S8192x4096.Idx → Elt Ideal .f32 :=
  fun i => ∑ k : Fin 4096, x (ix2 (i 0) k) * w (ix2 (i 1) k)

/-! ## The body's product at an entry -/

theorem lhs_row (j : S1024x1024.Idx) (q : dot_S1024x4096_S1024x4096_S1024x1024_1_1_0_0_n_n.contr.Idx) :
    (dot_S1024x4096_S1024x4096_S1024x1024_1_1_0_0_n_n.lhsIdx j q 0).val = (j 0).val := by
  unfold DotDims.lhsIdx
  rw [dif_neg (show ¬(0 : Fin S1024x4096.rank) ∈ dot_S1024x4096_S1024x4096_S1024x1024_1_1_0_0_n_n.lhsBatch by decide),
    dif_pos (show (0 : Fin S1024x4096.rank) ∈ dot_S1024x4096_S1024x4096_S1024x1024_1_1_0_0_n_n.lhsNonContracting by decide)]
  rfl
theorem lhs_col (j : S1024x1024.Idx) (q : dot_S1024x4096_S1024x4096_S1024x1024_1_1_0_0_n_n.contr.Idx) :
    (dot_S1024x4096_S1024x4096_S1024x1024_1_1_0_0_n_n.lhsIdx j q 1).val = (q ⟨0, by decide⟩).val :=
  dot_S1024x4096_S1024x4096_S1024x1024_1_1_0_0_n_n.lhsIdx_val_of_single rfl j q
theorem rhs_row (j : S1024x1024.Idx) (q : dot_S1024x4096_S1024x4096_S1024x1024_1_1_0_0_n_n.contr.Idx) :
    (dot_S1024x4096_S1024x4096_S1024x1024_1_1_0_0_n_n.rhsIdx j q 0).val = (j 1).val := by
  unfold DotDims.rhsIdx
  rw [dif_neg (show ¬(0 : Fin S1024x4096.rank) ∈ dot_S1024x4096_S1024x4096_S1024x1024_1_1_0_0_n_n.rhsBatch by decide),
    dif_pos (show (0 : Fin S1024x4096.rank) ∈ dot_S1024x4096_S1024x4096_S1024x1024_1_1_0_0_n_n.rhsNonContracting by decide)]
  rfl
theorem rhs_col (j : S1024x1024.Idx) (q : dot_S1024x4096_S1024x4096_S1024x1024_1_1_0_0_n_n.contr.Idx) :
    (dot_S1024x4096_S1024x4096_S1024x1024_1_1_0_0_n_n.rhsIdx j q 1).val = (q ⟨0, by decide⟩).val :=
  dot_S1024x4096_S1024x4096_S1024x1024_1_1_0_0_n_n.rhsIdx_val_of_single rfl j q

/-- Entry `(p, q)` of the body's stored block: the sum over `k` of the activation block at `(p, k)` times the
    weight block at `(q, k)`. -/
theorem payload_apply (x0 : Vec Ideal S1024x4096 .f32) (x1 : Vec Ideal S1024x4096 .bf16) (p q : Fin 1024) :
    k1_pay1 x0 x1 (ix2 p q) = ∑ k : Fin 4096, x0 (ix2 p k) * x1 (ix2 q k) := by
  unfold k1_pay1
  rw [shapeCast_self]
  exact Cert.LibMatmulNT.matmul_nt_zero_apply dot_S1024x4096_S1024x4096_S1024x1024_1_1_0_0_n_n none
    (truncf .bf16 x0 bitsLt_bf16_f32) x1 rfl rfl lhs_row lhs_col rhs_row rhs_col p q

/-! ## From blocks to the array -/

theorem zero_offsets : (![0, 0] : Fin 2 → Nat) = fun _ => 0 := funext fun a => by fin_cases a <;> rfl

/-- Point `t` is `(t / 4, t % 4)`: the activation window is at block row `t / 4`, the weight window at block row
    `t % 4`, the output window at block `(t / 4, t % 4)`. -/
theorem block_index : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = t.val % 4 :=
  (by decide +kernel : ∀ t : Fin grid1.N, _)

variable (V : (c : Dev nD) → (b : Ref sig .tc) → Buf (Elt Ideal) ((c : Thread nD τ).loc b))

/-- What point `t` writes back is block `t` of `X · Wᵀ` of the two arrays as the region finds them. -/
theorem flushed_eq (c : Dev nD) (t : Fin cfg1.N) :
    (dat1 V c).flushed 2 t
      = ((cfg1.win 2).blk t).view.read (Elt Ideal) (productArray (V c main_arg0) (V c main_v0)) := by
  show (cfg1.win 2).cut (grid1.coords t) ((dat1 V c).after 2 t) = _
  rw [after1_2]
  unfold out1_2
  rw [View.canon_unit_zero zero_offsets]
  simp only [View.ld_unit_zero (S := S1024x4096) zero_offsets]
  obtain ⟨e0, e1, e2, e3, e4, e5⟩ := block_index t
  funext j
  obtain ⟨p, q, rfl⟩ : ∃ (p q : Fin 1024), j = ix2 p q := ⟨j 0, j 1, eq_ix2 j⟩
  refine (payload_apply _ _ p q).trans ?_
  rw [View.read_apply]
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 1024 + 1 * p.val = win1_2.index t (0 : Fin 2) * 1024 + 1 * p.val; omega
    | ⟨1, _⟩ => show win1_0.index t (1 : Fin 2) * 4096 + 1 * k.val = k.val; omega
  have h1 : ((cfg1.win 1).blk t).view.emb (ix2 q k) = ix2 ((((cfg1.win 2).blk t).view.emb (ix2 p q)) 1) k := by
    funext a; apply Fin.ext
    match a with
    | ⟨0, _⟩ => show win1_1.index t (0 : Fin 2) * 1024 + 1 * q.val = win1_2.index t (1 : Fin 2) * 1024 + 1 * q.val; omega
    | ⟨1, _⟩ => show win1_1.index t (1 : Fin 2) * 4096 + 1 * k.val = k.val; omega
  have hx : (iblk1 V c 0 t (ix2 p k) : EReal)
      = V c main_arg0 (ix2 ((((cfg1.win 2).blk t).view.emb (ix2 p q)) 0) k) := congrArg (V c main_arg0) h0
  have hw : (iblk1 V c 1 t (ix2 q k) : EReal)
      = V c main_v0 (ix2 ((((cfg1.win 2).blk t).view.emb (ix2 p q)) 1) k) := congrArg (V c main_v0) h1
  exact congrArg₂ (fun (u v : EReal) => u * v) hx hw

/-- An index of the array is in point `t`'s output block iff each coordinate is in the block's range. -/
theorem mem_block (t : Fin cfg1.N) (i : S8192x4096.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v1).slice (win1_2.rect t)).set ↔ _
  rw [View.set_slice_whole, Rect.mem_set_unit]
  exact Iff.rfl

/-- Entry `(r, s)` of the array is in the block of point `4 · (r / 1024) + s / 1024`: the blocks tile the array. -/
theorem covered (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ : ∃ t : Fin cfg1.N, t.val = (i 0).val / 1024 * 4 + (i 1).val / 1024 :=
    ⟨⟨(i 0).val / 1024 * 4 + (i 1).val / 1024, by show (i 0).val / 1024 * 4 + (i 1).val / 1024 < 32; omega⟩, rfl⟩
  obtain ⟨e0, e1, e2, e3, e4, e5⟩ := block_index t
  refine ⟨t, flush1_2 t, ?_⟩
  rw [mem_block]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The region's output array after all its write-backs: `X · Wᵀ` of the activations and the ternary weight as the
    region finds them. -/
theorem final (c : Dev nD) :
    (dat1 V c).arrAt 2 cfg1.N = productArray (V c main_arg0) (V c main_v0) :=
  (dat1 V c).arrAt_eq_of_cover 2 _ (fun t _ => flushed_eq V c t) covered

end Cert.KernelIdeal.Product

end
-- ==== Proof.TernaryLaw.lean ====
/-
  The algebra that joins the two programs, on the extended reals.

  Write `[w > 0]` for the number 1 when `w` is positive and 0 otherwise.  One program forms, for each output
  entry, the single sum  `Σₖ xₖ · ([aₖ > 0] − [bₖ > 0])`;  the other forms the difference of two sums
  `Σₖ xₖ · (([aₖ > 0] − aₖ) + aₖ)  −  Σₖ xₖ · (([bₖ > 0] − bₖ) + bₖ)`.
  For REAL `x`, `a`, `b` the two are equal: `(p − a) + a = p`, and a real factor distributes over a difference.
  Neither step holds at an infinity (`(p − ⊤) + ⊤ = ⊥`), which is why the entries are assumed real.
-/
import Idealize.ShloMosaic.PureOps.Ideal
import Idealize.ShloMosaic.PureOps.Ideal.Laws
import Idealize.ShloMosaic.Lib.ValueIdx

noncomputable section

namespace Cert.TernaryLaw

open Idealize.ShloMosaic

/-- The coercion of the reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The law over the reals, read in the extended reals. -/
theorem sum_sub_sum {ι : Type*} [Fintype ι] (x a b p q : ι → ℝ) :
    (∑ k, (x k : EReal) * (((p k : EReal) - (a k : EReal)) + (a k : EReal)))
      - (∑ k, (x k : EReal) * (((q k : EReal) - (b k : EReal)) + (b k : EReal)))
    = ∑ k, (x k : EReal) * ((p k : EReal) - (q k : EReal)) := by
  simp only [← EReal.coe_sub, ← EReal.coe_add, ← EReal.coe_mul, ← coe_sum]
  refine congrArg _ ?_
  simp only [sub_add_cancel, mul_sub, Finset.sum_sub_distrib]

/-- `[w > 0]` as a real number: the comparison's bit read as a natural number. The zero is the single-precision
    pattern of all zero bits. -/
def pos (w : EReal) : ℝ := ((Ideal.cmp .ogt w (Ideal.ofBits .f32 0x00000000#32)).toNat : ℝ)

/-- A bit widened to 32 bits with zeros and read as a SIGNED integer is the bit read as a natural number. -/
theorem signed_widened_bit (b : BitVec 1) : (((b.setWidth 32).toInt : ℝ) : EReal) = ((b.toNat : ℝ) : EReal) := by
  have h : (b.setWidth 32).toInt = (b.toNat : ℤ) := by revert b; decide
  rw [h, Int.cast_natCast]

/-- The law at real entries given as extended reals. -/
theorem difference_of_sums {ι : Type*} [Fintype ι] (x a b : ι → EReal)
    (hx : ∀ k, ∃ r : ℝ, x k = (r : EReal)) (ha : ∀ k, ∃ r : ℝ, a k = (r : EReal)) (hb : ∀ k, ∃ r : ℝ, b k = (r : EReal)) :
    (∑ k, x k * (((pos (a k) : EReal) - a k) + a k)) - (∑ k, x k * (((pos (b k) : EReal) - b k) + b k))
    = ∑ k, x k * ((pos (a k) : EReal) - (pos (b k) : EReal)) := by
  choose xr hxr using hx
  choose ar har using ha
  choose br hbr using hb
  obtain rfl : x = fun k => (xr k : EReal) := funext hxr
  obtain rfl : a = fun k => (ar k : EReal) := funext har
  obtain rfl : b = fun k => (br k : EReal) := funext hbr
  exact sum_sub_sum xr ar br (fun k => pos (ar k)) (fun k => pos (br k))

open Idealize.ShloMosaic.ValueIdx in
/-- THE RESULT both programs compute, as one function of the three argument arrays: entry `(r, s)` is the sum over
    `k` of the activation at `(r, k)` times `[w₁ (s, k) > 0] − [w₂ (s, k) > 0]`. -/
def ternaryLinear (x : (⟨2, ![8192, 4096]⟩ : Shape).Idx → EReal) (w1 w2 : (⟨2, ![4096, 4096]⟩ : Shape).Idx → EReal) :
    (⟨2, ![8192, 4096]⟩ : Shape).Idx → EReal :=
  fun i => ∑ k : Fin 4096, x (ix2 (i 0) k) * ((pos (w1 (ix2 (i 1) k)) : EReal) - (pos (w2 (ix2 (i 1) k)) : EReal))

end Cert.TernaryLaw

end
-- ==== Proof.KernelValue.lean ====
/-
  The idealized kernel computes the common result.

  The last fold's contents of the result buffer is the second region's output array after its write-backs: the product
  of the activations — untouched by the first region — with the transpose of the first region's output array, the
  ternary weight of the two weight arrays as launched.  On the extended reals an entry of the ternary weight is
  `[a > 0] − [b > 0]` with each `[· > 0]` the real number 0 or 1, so the product is the common result.
-/
import proofs.«101423_j25451976196807_2_alg».proof.Proof.KernelRun
import proofs.«101423_j25451976196807_2_alg».proof.Proof.Binarize
import proofs.«101423_j25451976196807_2_alg».proof.Proof.Product
import proofs.«101423_j25451976196807_2_alg».proof.Proof.TernaryLaw

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx
open Cert.TernaryLaw

/-- An entry of the ternary weight on the extended reals. -/
theorem ternary_ideal (a b : EReal) :
    Binarize.ternary (F := Ideal) a b = (pos a : EReal) - (pos b : EReal) := by
  show (((Ideal.cmp .ogt a (Ideal.ofBits .f32 0x00000000#32)).setWidth 32).toInt : ℝ)
      - ((((Ideal.cmp .ogt b (Ideal.ofBits .f32 0x00000000#32)).setWidth 32).toInt : ℝ) : EReal) = _
  rw [signed_widened_bit, signed_widened_bit]
  rfl

/-- The product with the transposed ternary weight is the common result. -/
theorem product_ternary (x : S8192x4096.Idx → Elt Ideal .f32) (w1 w2 : S4096x4096.Idx → Elt Ideal .f32) :
    Product.productArray x (Binarize.ternaryArray w1 w2) = ternaryLinear x w1 w2 := by
  funext i
  refine Finset.sum_congr rfl fun k _ => ?_
  exact congrArg (fun u : EReal => x (ix2 (i 0) k) * u) (ternary_ideal _ _)

variable (m : (ℓ : Loc nD τ sig) → Buf (Elt Ideal) ℓ) (ρ : Dev nD → PrngReg)

/-- The result buffer's contents at the last fold. -/
theorem last_fold (c : Dev nD) :
    W2 m ρ c (Proc.devRef .tc main_v1)
      = ternaryLinear (m ((c.tc : Thread nD τ).loc main_arg0)) (m ((c.tc : Thread nD τ).loc main_arg1))
          (m ((c.tc : Thread nD τ).loc main_arg2)) := by
  have e2 : W2 m ρ c (Proc.devRef .tc main_v1) = (dat1 (V1 m ρ) c).arrAt 2 cfg1.N := W2_arr m ρ c 2
  have ex : V1 m ρ c main_arg0 = m ((c.tc : Thread nD τ).loc main_arg0) := W1_of_ne m ρ c main_arg0 (by decide)
  have ew : V1 m ρ c main_v0
      = Binarize.ternaryArray (m ((c.tc : Thread nD τ).loc main_arg1)) (m ((c.tc : Thread nD τ).loc main_arg2)) :=
    (W1_arr m ρ c 2).trans (Binarize.final (V0 m ρ) c)
  rw [e2, Product.final (V1 m ρ) c, ex, ew]
  exact product_ternary _ _ _

/-- Every weakly fair execution of @main terminates, nothing faulting, with the result buffer at the common result
    of the arguments as launched, and the arguments unchanged. -/
theorem run : θ_run defs (onTc (τ := τ) (main (F := Ideal))) ⟨m, fun _ => 0, ρ⟩ (fun r => ∀ c : Dev nD,
      r.2.mem ((c.tc : Thread nD τ).loc main_v1)
        = ternaryLinear (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (last_fold m ρ c), (h c).2⟩) (Fold.run_fold m ρ)

end Cert.KernelIdeal.Result

end
-- ==== Proof.Reference.lean ====
/-
  The reference computes the common result at real entries.

  The reference forms each weight's straight-through binarization `([w > 0] − w) + w`, multiplies the activations
  by the transpose of each (a sum over the shared column index `k`), and subtracts the two products.  Entry by entry,
  at real activations and weights, that is the single sum `Σₖ x (r, k) · ([w₁ (s, k) > 0] − [w₂ (s, k) > 0])`.
-/
import proofs.«101423_j25451976196807_2_alg».proof.Proof.Gen.ReferenceIdeal.Read
import proofs.«101423_j25451976196807_2_alg».proof.Proof.TernaryLaw

noncomputable section

namespace Cert.ReferenceIdeal.Bridge

open Cert.ReferenceIdeal Cert.ReferenceIdeal.Gen Cert.ReferenceIdeal.Read
open Idealize.ShloMosaic Idealize.ShloMosaic.ValueIdx Cert.TernaryLaw

/-- One entry of the first weight's straight-through binarization. -/
theorem weight1_apply (w : FVec Ideal S4096x4096 .f32) (j : S4096x4096.Idx) :
    val_main_v4 (F := Ideal) w j = ((pos (w j) : EReal) - w j) + w j := by
  rw [val_main_v4_apply, val_main_v3_apply, val_main_v2_apply, val_main_v1_apply, val_main_v0_apply, val_main_cst_apply]
  rfl

/-- One entry of the second weight's straight-through binarization. -/
theorem weight2_apply (w : FVec Ideal S4096x4096 .f32) (j : S4096x4096.Idx) :
    val_main_v9 (F := Ideal) w j = ((pos (w j) : EReal) - w j) + w j := by
  rw [val_main_v9_apply, val_main_v8_apply, val_main_v7_apply, val_main_v6_apply, val_main_v5_apply, val_main_cst_0_apply]
  rfl

/-- The reference's result at real entries is the common result. -/
theorem result_eq (x : FVec Ideal S8192x4096 .f32) (w1 w2 : FVec Ideal S4096x4096 .f32)
    (hx : ∀ i, ∃ r : ℝ, x i = (r : EReal)) (h1 : ∀ i, ∃ r : ℝ, w1 i = (r : EReal)) (h2 : ∀ i, ∃ r : ℝ, w2 i = (r : EReal)) :
    val_main_v12 (F := Ideal) x w1 w2 = ternaryLinear x w1 w2 := by
  funext i
  have el : ∀ k, lidx_main_v10 i k = ix2 (i 0) k := fun k => funext fun a => Fin.ext (by
    match a with
    | ⟨0, _⟩ => rfl
    | ⟨1, _⟩ => rfl)
  have er : ∀ k, ridx_main_v10 i k = ix2 (i 1) k := fun k => funext fun a => Fin.ext (by
    match a with
    | ⟨0, _⟩ => rfl
    | ⟨1, _⟩ => rfl)
  have el' : ∀ k, lidx_main_v11 i k = ix2 (i 0) k := fun k => funext fun a => Fin.ext (by
    match a with
    | ⟨0, _⟩ => rfl
    | ⟨1, _⟩ => rfl)
  have er' : ∀ k, ridx_main_v11 i k = ix2 (i 1) k := fun k => funext fun a => Fin.ext (by
    match a with
    | ⟨0, _⟩ => rfl
    | ⟨1, _⟩ => rfl)
  rw [val_main_v12_apply, val_main_v10_apply, val_main_v11_apply]
  simp only [el, er, el', er', weight1_apply, weight2_apply]
  exact difference_of_sums (fun k => x (ix2 (i 0) k)) (fun k => w1 (ix2 (i 1) k)) (fun k => w2 (ix2 (i 1) k))
    (fun k => hx _) (fun k => h1 _) (fun k => h2 _)

end Cert.ReferenceIdeal.Bridge

end
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.Finite.lean ====
/-
  The precondition read back: every entry of the three argument arrays is a real number.

  The precondition is the conjunction, over the three arrays, of "every entry's absolute value is below +∞".  A
  conjunction of bits that is 1 has both bits 1; an "all" over an array that is 1 has a 1 at every entry; and an
  extended real whose absolute value is below +∞ is a real number.
-/
import proofs.«101423_j25451976196807_2_alg».proof.Pre_finite_inputs
import proofs.«101423_j25451976196807_2_alg».proof.Proof.LibRealEntry
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

/-- Under the precondition every entry of each argument array is a real number. -/
theorem entries_real [Cert.Pre_finite_inputs.Facts] (x : FVec Ideal S8192x4096 .f32) (w1 w2 : FVec Ideal S4096x4096 .f32)
    (h : Cert.Pre_finite_inputs.fn (F := Ideal) x w1 w2 = fun _ => 1#1) :
    (∀ i, ∃ r : ℝ, x i = (r : EReal)) ∧ (∀ i, ∃ r : ℝ, w1 i = (r : EReal)) ∧ (∀ i, ∃ r : ℝ, w2 i = (r : EReal)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  refine ⟨fun i => ?_, fun i => ?_, fun i => ?_⟩
  · exact Cert.LibRealEntry.real_of_abs_lt _ (Host.reduce_andi_all _ _ _ _ _ h0' i)
  · exact Cert.LibRealEntry.real_of_abs_lt _ (Host.reduce_andi_all _ _ _ _ _ h1 i)
  · exact Cert.LibRealEntry.real_of_abs_lt _ (Host.reduce_andi_all _ _ _ _ _ h2 i)

end Cert.Finite

end
-- ==== Proof.lean ====
/-
  A ternary-weight linear layer: `y = x · (B(w₁) − B(w₂))ᵀ` against `x · S(w₁)ᵀ − x · S(w₂)ᵀ`.

  Here `x` is `8192 × 4096`, the two weights are `4096 × 4096`, `B(w)` replaces every entry of `w` by 1 when it is
  positive and by 0 otherwise, and `S(w) = (B(w) − w) + w` is the same binarization written so that its derivative is
  the identity's.

  The kernel runs two pipelined regions.  The first writes the ternary weight `B(w₁) − B(w₂)`, 512 rows at a point; its
  eight blocks tile the array, so afterwards the array is that function of the two weights (Binarize).  The second
  multiplies 1024 rows of `x` by the transpose of 1024 rows of the ternary weight into a zero accumulator; its 32
  blocks tile the output, so the output array is the product of `x` with the transposed ternary weight, entry `(r, s)`
  the sum over `k` of `x (r, k) · ([w₁ (s, k) > 0] − [w₂ (s, k) > 0])` (Product, KernelValue).  Following the
  buffers' contents through the two regions (KernelRun) gives the kernel's run with its result named.

  The reference computes `Σₖ x (r, k) · S(w₁) (s, k) − Σₖ x (r, k) · S(w₂) (s, k)`.  The precondition says every
  entry of `x`, `w₁`, `w₂` is a real number (Finite); at real entries `S(w) = B(w)` and the real factor `x (r, k)`
  distributes over the difference, so the two results are equal entry by entry (TernaryLaw, Reference).  On the
  extended reals a change of float format is the identity, and the kernel's bit-to-float conversion (the bit widened
  to 32 bits and read signed) and the reference's (the bit read unsigned) give the same 0 or 1.

  The idealization rewrote nothing, so that conjunct is trivial; the three frames are the generated frame proofs and
  the reference's run with its result dropped.
-/
import proofs.«101423_j25451976196807_2_alg».proof.Defs
import proofs.«101423_j25451976196807_2_alg».proof.Proof.Gen.Kernel
import proofs.«101423_j25451976196807_2_alg».proof.Proof.Gen.Kernel.Skeleton
import proofs.«101423_j25451976196807_2_alg».proof.Proof.Gen.Kernel.Launch
import proofs.«101423_j25451976196807_2_alg».proof.Proof.Gen.Kernel.Points
import proofs.«101423_j25451976196807_2_alg».proof.Proof.Gen.Kernel.Frame
import proofs.«101423_j25451976196807_2_alg».proof.Proof.Gen.KernelIdeal
import proofs.«101423_j25451976196807_2_alg».proof.Proof.Gen.KernelIdeal.Skeleton
import proofs.«101423_j25451976196807_2_alg».proof.Proof.Gen.KernelIdeal.Launch
import proofs.«101423_j25451976196807_2_alg».proof.Proof.Gen.KernelIdeal.Points
import proofs.«101423_j25451976196807_2_alg».proof.Proof.Gen.KernelIdeal.Frame
import proofs.«101423_j25451976196807_2_alg».proof.Proof.Gen.ReferenceIdeal
import proofs.«101423_j25451976196807_2_alg».proof.Proof.Gen.Pre_finite_inputs
import proofs.«101423_j25451976196807_2_alg».proof.Proof.Gen.ReferenceIdeal.Run
import proofs.«101423_j25451976196807_2_alg».proof.Proof.Gen.ReferenceIdeal.Read
import proofs.«101423_j25451976196807_2_alg».proof.Proof.KernelValue
import proofs.«101423_j25451976196807_2_alg».proof.Proof.Reference
import proofs.«101423_j25451976196807_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the common result of arguments that agree and are real. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, h1, h2⟩ := Cert.Finite.entries_real _ _ _ (hpre c)
  rw [(hagree c).1, (hagree c).2.1, (hagree c).2.2, Cert.ReferenceIdeal.Read.val_main_v12_eq]
  exact Cert.ReferenceIdeal.Bridge.result_eq _ _ _ hx h1 h2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
